-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128000x64 : Shape := ⟨2, ![128000, 64]⟩
abbrev S128000x4 : Shape := ⟨2, ![128000, 4]⟩
abbrev S_ : Shape := ⟨0, ![]⟩

class Facts : Prop where
  bcast_S_S128000x64 : S_.BroadcastsInDim S128000x64 (![] : Fin 0 → Fin S128000x64.rank)
  reducesTo_S128000x64_S_d0_1 : S128000x64.ReducesTo [0, 1] S_
  h_S_ : 0 < S_.numel

variable [Facts]

def fn {F : FTy → Type} [FloatOps F] (main_arg0 : FVec F S128000x64 .f32) (main_arg1 : IVec S128000x4 32) : IVec S_ 1 :=
  let main_v0 : FVec F S128000x64 .f32 := Host.absf main_arg0
  let main_cst : FVec F S_ .f32 := constant S_ .f32 0x7F800000#32
  let main_v1 : FVec F S128000x64 .f32 := broadcastInDim S128000x64 ![] bcast_S_S128000x64 main_cst
  let main_v2 : IVec S128000x64 1 := cmpf .olt main_v0 main_v1
  let main_c : IVec S_ 1 := constantI S_ 1 1#1
  let main_v3 : IVec S_ 1 := (fun x v => Host.reduce IntOp.andi x v reducesTo_S128000x64_S_d0_1 h_S_) main_v2 main_c
  main_v3
-- ==== Kernel.lean ====
abbrev S128000x64 : Shape := ⟨2, ![128000, 64]⟩
abbrev S128000x4 : Shape := ⟨2, ![128000, 4]⟩
abbrev S128000x1 : Shape := ⟨2, ![128000, 1]⟩
abbrev S128000 : Shape := ⟨1, ![128000]⟩
abbrev S_ : Shape := ⟨0, ![]⟩
abbrev S8x262144x64 : Shape := ⟨3, ![8, 262144, 64]⟩
abbrev S128000x2 : Shape := ⟨2, ![128000, 2]⟩
abbrev S8x64x262144 : Shape := ⟨3, ![8, 64, 262144]⟩
abbrev S1x8192x64 : Shape := ⟨3, ![1, 8192, 64]⟩
abbrev S1x64x8192 : Shape := ⟨3, ![1, 64, 8192]⟩
abbrev S8192x64 : Shape := ⟨2, ![8192, 64]⟩
abbrev S64x8192 : Shape := ⟨2, ![64, 8192]⟩
abbrev S8x64x512x512 : Shape := ⟨4, ![8, 64, 512, 512]⟩

abbrev nBuf : Space → Nat
  | .hbm => 37
  | .vmem => 4
  | .smem => 0
  | _ => 0

abbrev bufTy : (tb : Table) → Fin (tcTables nBuf tb) → BufTy
  | .hbm, ⟨0, _⟩ => ⟨S128000x64, .f32⟩
  | .hbm, ⟨1, _⟩ => ⟨S128000x4, .i32⟩
  | .hbm, ⟨2, _⟩ => ⟨S128000x1, .i32⟩
  | .hbm, ⟨3, _⟩ => ⟨S128000, .i32⟩
  | .hbm, ⟨4, _⟩ => ⟨S128000x1, .i32⟩
  | .hbm, ⟨5, _⟩ => ⟨S128000, .i32⟩
  | .hbm, ⟨6, _⟩ => ⟨S128000x1, .i32⟩
  | .hbm, ⟨7, _⟩ => ⟨S128000, .i32⟩
  | .hbm, ⟨8, _⟩ => ⟨S_, .i32⟩
  | .hbm, ⟨9, _⟩ => ⟨S128000, .i32⟩
  | .hbm, ⟨10, _⟩ => ⟨S128000, .i32⟩
  | .hbm, ⟨11, _⟩ => ⟨S128000, .i32⟩
  | .hbm, ⟨12, _⟩ => ⟨S128000x1, .i32⟩
  | .hbm, ⟨13, _⟩ => ⟨S128000, .i32⟩
  | .hbm, ⟨14, _⟩ => ⟨S128000, .i32⟩
  | .hbm, ⟨15, _⟩ => ⟨S_, .f32⟩
  | .hbm, ⟨16, _⟩ => ⟨S8x262144x64, .f32⟩
  | .hbm, ⟨17, _⟩ => ⟨S_, .i32⟩
  | .hbm, ⟨18, _⟩ => ⟨S128000, .i32⟩
  | .hbm, ⟨19, _⟩ => ⟨S128000, .i1⟩
  | .hbm, ⟨20, _⟩ => ⟨S_, .i32⟩
  | .hbm, ⟨21, _⟩ => ⟨S128000, .i32⟩
  | .hbm, ⟨22, _⟩ => ⟨S128000, .i32⟩
  | .hbm, ⟨23, _⟩ => ⟨S128000, .i32⟩
  | .hbm, ⟨24, _⟩ => ⟨S_, .i32⟩
  | .hbm, ⟨25, _⟩ => ⟨S128000, .i32⟩
  | .hbm, ⟨26, _⟩ => ⟨S128000, .i1⟩
  | .hbm, ⟨27, _⟩ => ⟨S_, .i32⟩
  | .hbm, ⟨28, _⟩ => ⟨S128000, .i32⟩
  | .hbm, ⟨29, _⟩ => ⟨S128000, .i32⟩
  | .hbm, ⟨30, _⟩ => ⟨S128000, .i32⟩
  | .hbm, ⟨31, _⟩ => ⟨S128000x1, .i32⟩
  | .hbm, ⟨32, _⟩ => ⟨S128000x1, .i32⟩
  | .hbm, ⟨33, _⟩ => ⟨S128000x2, .i32⟩
  | .hbm, ⟨34, _⟩ => ⟨S8x262144x64, .f32⟩
  | .hbm, ⟨35, _⟩ => ⟨S8x64x262144, .f32⟩
  | .hbm, ⟨36, _⟩ => ⟨S8x64x512x512, .f32⟩
  | .local _ .vmem, ⟨0, _⟩ => ⟨S1x8192x64, .f32⟩
  | .local _ .vmem, ⟨1, _⟩ => ⟨S1x8192x64, .f32⟩
  | .local _ .vmem, ⟨2, _⟩ => ⟨S1x64x8192, .f32⟩
  | .local _ .vmem, ⟨3, _⟩ => ⟨S1x64x8192, .f32⟩
  | _, _ => ⟨S128000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  slices_S128000x4_S128000x1_0_0 : S128000x4.Slices ![0, 0] S128000x1
  shapeCasts_S128000x1_S128000 : S128000x1.ShapeCasts S128000
  slices_S128000x4_S128000x1_0_1 : S128000x4.Slices ![0, 1] S128000x1
  slices_S128000x4_S128000x1_0_2 : S128000x4.Slices ![0, 2] S128000x1
  bcast_S_S128000 : S_.BroadcastsInDim S128000 (![] : Fin 0 → Fin S128000.rank)
  slices_S128000x4_S128000x1_0_3 : S128000x4.Slices ![0, 3] S128000x1
  bcast_S_S8x262144x64 : S_.BroadcastsInDim S8x262144x64 (![] : Fin 0 → Fin S8x262144x64.rank)
  bcast_S128000_S128000x1_0 : S128000.BroadcastsInDim S128000x1 (![0] : Fin 1 → Fin S128000x1.rank)
  concatenates_S128000x1_S128000x1_S128000x2_d1 : Shape.Concatenates [S128000x1, S128000x1] S128000x2 1
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  transposes_S8192x64_p1_0_S64x8192 : S8192x64.Transposes [1, 0] S64x8192
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  shapeCasts_S64x8192_S1x64x8192 : S64x8192.ShapeCasts S1x64x8192
  shapeCasts_S8x64x262144_S8x64x512x512 : S8x64x262144.ShapeCasts S8x64x512x512
  scatter_S8x262144x64_S128000x2_S128000x64_1_01_01_1_wf : ScatterDims.WF S8x262144x64 S128000x2 S128000x64 [1] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S8x262144x64.size a
  hwx0_0 : ∀ i : grid0.Coords, EltTy.bits .f32 = 32 ∨ (Rect.block (s := S8x262144x64) S1x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x8192.size a ≤ S8x64x262144.size a
  hwx0_1 : ∀ i : grid0.Coords, EltTy.bits .f32 = 32 ∨ (Rect.block (s := S8x64x262144) S1x64x8192.size (cc0_transform_1 i) (hinb0_1 i)).WholeWords (EltTy.packing .f32)

variable [Facts₀]

def scatter_S8x262144x64_S128000x2_S128000x64_1_01_01_1 : ScatterDims S8x262144x64 S128000x2 S128000x64 where
  updateWindowDims := [1]
  insertedWindowDims := [0, 1]
  scatterDimsToOperandDims := [0, 1]
  indexVectorDim := 1
  wf := scatter_S8x262144x64_S128000x2_S128000x64_1_01_01_1_wf

abbrev win0_0 : Pipeline.Window sig grid0 :=
  Pipeline.Window.ofSpec (Memref.whole main_v26) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x64x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128000x64 : Shape := ⟨2, ![128000, 64]⟩
abbrev S128000x4 : Shape := ⟨2, ![128000, 4]⟩
abbrev S128000x1 : Shape := ⟨2, ![128000, 1]⟩
abbrev S128000 : Shape := ⟨1, ![128000]⟩
abbrev S_ : Shape := ⟨0, ![]⟩
abbrev S8x262144x64 : Shape := ⟨3, ![8, 262144, 64]⟩
abbrev S128000x2 : Shape := ⟨2, ![128000, 2]⟩
abbrev S8x64x262144 : Shape := ⟨3, ![8, 64, 262144]⟩
abbrev S8x64x512x512 : Shape := ⟨4, ![8, 64, 512, 512]⟩

abbrev nBuf : Space → Nat
  | .hbm => 37
  | .vmem => 0
  | .smem => 0
  | _ => 0

abbrev bufTy : (tb : Table) → Fin (tcTables nBuf tb) → BufTy
  | .hbm, ⟨0, _⟩ => ⟨S128000x64, .f32⟩
  | .hbm, ⟨1, _⟩ => ⟨S128000x4, .i32⟩
  | .hbm, ⟨2, _⟩ => ⟨S128000x1, .i32⟩
  | .hbm, ⟨3, _⟩ => ⟨S128000, .i32⟩
  | .hbm, ⟨4, _⟩ => ⟨S128000x1, .i32⟩
  | .hbm, ⟨5, _⟩ => ⟨S128000, .i32⟩
  | .hbm, ⟨6, _⟩ => ⟨S128000x1, .i32⟩
  | .hbm, ⟨7, _⟩ => ⟨S128000, .i32⟩
  | .hbm, ⟨8, _⟩ => ⟨S_, .i32⟩
  | .hbm, ⟨9, _⟩ => ⟨S128000, .i32⟩
  | .hbm, ⟨10, _⟩ => ⟨S128000, .i32⟩
  | .hbm, ⟨11, _⟩ => ⟨S128000, .i32⟩
  | .hbm, ⟨12, _⟩ => ⟨S128000x1, .i32⟩
  | .hbm, ⟨13, _⟩ => ⟨S128000, .i32⟩
  | .hbm, ⟨14, _⟩ => ⟨S128000, .i32⟩
  | .hbm, ⟨15, _⟩ => ⟨S_, .f32⟩
  | .hbm, ⟨16, _⟩ => ⟨S8x262144x64, .f32⟩
  | .hbm, ⟨17, _⟩ => ⟨S_, .i32⟩
  | .hbm, ⟨18, _⟩ => ⟨S128000, .i32⟩
  | .hbm, ⟨19, _⟩ => ⟨S128000, .i1⟩
  | .hbm, ⟨20, _⟩ => ⟨S_, .i32⟩
  | .hbm, ⟨21, _⟩ => ⟨S128000, .i32⟩
  | .hbm, ⟨22, _⟩ => ⟨S128000, .i32⟩
  | .hbm, ⟨23, _⟩ => ⟨S128000, .i32⟩
  | .hbm, ⟨24, _⟩ => ⟨S_, .i32⟩
  | .hbm, ⟨25, _⟩ => ⟨S128000, .i32⟩
  | .hbm, ⟨26, _⟩ => ⟨S128000, .i1⟩
  | .hbm, ⟨27, _⟩ => ⟨S_, .i32⟩
  | .hbm, ⟨28, _⟩ => ⟨S128000, .i32⟩
  | .hbm, ⟨29, _⟩ => ⟨S128000, .i32⟩
  | .hbm, ⟨30, _⟩ => ⟨S128000, .i32⟩
  | .hbm, ⟨31, _⟩ => ⟨S128000x1, .i32⟩
  | .hbm, ⟨32, _⟩ => ⟨S128000x1, .i32⟩
  | .hbm, ⟨33, _⟩ => ⟨S128000x2, .i32⟩
  | .hbm, ⟨34, _⟩ => ⟨S8x262144x64, .f32⟩
  | .hbm, ⟨35, _⟩ => ⟨S8x64x262144, .f32⟩
  | .hbm, ⟨36, _⟩ => ⟨S8x64x512x512, .f32⟩
  | _, _ => ⟨S128000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  slices_S128000x4_S128000x1_0_0 : S128000x4.Slices ![0, 0] S128000x1
  shapeCasts_S128000x1_S128000 : S128000x1.ShapeCasts S128000
  slices_S128000x4_S128000x1_0_1 : S128000x4.Slices ![0, 1] S128000x1
  slices_S128000x4_S128000x1_0_2 : S128000x4.Slices ![0, 2] S128000x1
  bcast_S_S128000 : S_.BroadcastsInDim S128000 (![] : Fin 0 → Fin S128000.rank)
  slices_S128000x4_S128000x1_0_3 : S128000x4.Slices ![0, 3] S128000x1
  bcast_S_S8x262144x64 : S_.BroadcastsInDim S8x262144x64 (![] : Fin 0 → Fin S8x262144x64.rank)
  bcast_S128000_S128000x1_0 : S128000.BroadcastsInDim S128000x1 (![0] : Fin 1 → Fin S128000x1.rank)
  concatenates_S128000x1_S128000x1_S128000x2_d1 : Shape.Concatenates [S128000x1, S128000x1] S128000x2 1
  transposes_S8x262144x64_S8x64x262144_0_2_1 : S8x262144x64.Transposes [0, 2, 1] S8x64x262144
  shapeCasts_S8x64x262144_S8x64x512x512 : S8x64x262144.ShapeCasts S8x64x512x512
  scatter_S8x262144x64_S128000x2_S128000x64_1_01_01_1_wf : ScatterDims.WF S8x262144x64 S128000x2 S128000x64 [1] [0, 1] [0, 1] 1

variable [Facts₀]

def scatter_S8x262144x64_S128000x2_S128000x64_1_01_01_1 : ScatterDims S8x262144x64 S128000x2 S128000x64 where
  updateWindowDims := [1]
  insertedWindowDims := [0, 1]
  scatterDimsToOperandDims := [0, 1]
  indexVectorDim := 1
  wf := scatter_S8x262144x64_S128000x2_S128000x64_1_01_01_1_wf

class Facts : Prop extends Facts₀ where

variable [Facts]
-- ==== Proof.Transposed.lean ====
/-
  Swapping the last two axes of a rank-3 array, stated once over literal shapes.

  The source array has shape [8, 262144, 64] (batch, grid cell, channel); its transpose has shape
  [8, 64, 262144] and holds at (b, c, g) the source's entry (b, g, c).  The kernel produces the transpose one
  tile at a time: a tile is an [1, 8192, 64] slab of the source, and its image is the [1, 64, 8192] slab that
  holds at (0, c, g) the tile's entry (0, g, c).  Both facts are read here at an index, free of any program.
-/
import Idealize.ShloMosaic.Lib.Pipeline.Value

noncomputable section

namespace Cert.Transposed

open Idealize.ShloMosaic

/-- The source array: batch × grid cell × channel. -/
abbrev Sbgc : Shape := ⟨3, ![8, 262144, 64]⟩
/-- Its transpose: batch × channel × grid cell. -/
abbrev Sbcg : Shape := ⟨3, ![8, 64, 262144]⟩
/-- One tile of the source, and the same with its unit axis dropped. -/
abbrev Tgc1 : Shape := ⟨3, ![1, 8192, 64]⟩
abbrev Tgc : Shape := ⟨2, ![8192, 64]⟩
/-- One tile of the transpose, and the same with its unit axis dropped. -/
abbrev Tcg1 : Shape := ⟨3, ![1, 64, 8192]⟩
abbrev Tcg : Shape := ⟨2, ![64, 8192]⟩

variable {α : Type}

/-- Entry (b, c, g) of the transpose comes from entry (b, g, c) of the source. -/
def src (i : Sbcg.Idx) : Sbgc.Idx := fun a => match a with
  | ⟨0, _⟩ => ⟨(i 0).val, (i 0).isLt⟩
  | ⟨1, _⟩ => ⟨(i 2).val, (i 2).isLt⟩
  | ⟨2, _⟩ => ⟨(i 1).val, (i 1).isLt⟩

/-- The transpose of a whole array, index by index. -/
def swapped (A : Sbgc.Idx → α) : Sbcg.Idx → α := fun i => A (src i)

/-- The permutation [0, 2, 1] of the axes is that function. -/
theorem transpose_eq_swapped (A : Sbgc.Idx → α) (h : Sbgc.Transposes [0, 2, 1] Sbcg) :
    transpose Sbcg [0, 2, 1] A h = swapped A := by
  funext i
  exact transpose_apply [0, 2, 1] A h i (src i) (fun b => match b with
    | ⟨0, _⟩ => rfl
    | ⟨1, _⟩ => rfl
    | ⟨2, _⟩ => rfl)

/-! ## One tile -/

/-- Entry (0, c, g) of a transposed tile comes from entry (0, g, c) of the tile. -/
def tileSrc (j : Tcg1.Idx) : Tgc1.Idx := fun a => match a with
  | ⟨0, _⟩ => ⟨0, Nat.one_pos⟩
  | ⟨1, _⟩ => ⟨(j 2).val, (j 2).isLt⟩
  | ⟨2, _⟩ => ⟨(j 1).val, (j 1).isLt⟩

/-- (c, g) of the transposed tile without its unit axis. -/
def dropCg (j : Tcg1.Idx) : Tcg.Idx := fun a => match a with
  | ⟨0, _⟩ => ⟨(j 1).val, (j 1).isLt⟩
  | ⟨1, _⟩ => ⟨(j 2).val, (j 2).isLt⟩

/-- (g, c) of the tile without its unit axis. -/
def dropGc (j : Tcg1.Idx) : Tgc.Idx := fun a => match a with
  | ⟨0, _⟩ => ⟨(j 2).val, (j 2).isLt⟩
  | ⟨1, _⟩ => ⟨(j 1).val, (j 1).isLt⟩

/-- Dropping the tile's unit axis, exchanging the two axes that remain, and putting a unit axis back in front
    reads the tile at `tileSrc`: each reshape keeps the row-major position, and the exchange is the permutation
    [1, 0]. -/
theorem tile_apply (x : Tgc1.Idx → α) (h1 : Tgc1.ShapeCasts Tgc) (h2 : Tgc.Transposes [1, 0] Tcg)
    (h3 : Tcg.ShapeCasts Tcg1) (j : Tcg1.Idx) :
    shapeCast Tcg1 (transpose Tcg [1, 0] (shapeCast Tgc x h1) h2) h3 j = x (tileSrc j) := by
  have hj0 : (j 0).val < 1 := (j 0).isLt
  have hj1 : (j 1).val < 64 := (j 1).isLt
  have hj2 : (j 2).val < 8192 := (j 2).isLt
  refine (shapeCast_apply _ h3 j (dropCg j) ?_).trans ?_
  · rewrite [Shape.rowMajor_val_two, Shape.rowMajor_val_three]
    show (j 1).val * 8192 + (j 2).val = ((j 0).val * 64 + (j 1).val) * 8192 + (j 2).val
    omega
  refine (transpose_apply [1, 0] _ h2 (dropCg j) (dropGc j) (fun b => match b with
    | ⟨0, _⟩ => rfl
    | ⟨1, _⟩ => rfl)).trans ?_
  refine shapeCast_apply x h1 (dropGc j) (tileSrc j) ?_
  rewrite [Shape.rowMajor_val_two, Shape.rowMajor_val_three]
  show (0 * 8192 + (j 2).val) * 64 + (j 1).val = (j 2).val * 64 + (j 1).val
  omega

end Cert.Transposed

end
-- ==== Proof.Tiles.lean ====
/-
  The region's output array after the run is the transpose of the array it was handed.

  The grid has 8 × 32 points; point number t is (b, k) = (t / 32, t % 32).  It fetches the slab
  [b, 8192·k … 8192·k + 8191, all 64 channels] of the input array and writes back the slab
  [b, all 64 channels, 8192·k … 8192·k + 8191] of the output array, holding at (0, c, g) what the fetched slab
  holds at (0, g, c).  So entry (b, c, G) of the written slab, with G = 8192·k + g, is entry (b, G, c) of the input
  array: every point writes a block of ONE function, the transpose.  The 256 written slabs tile the output array
  (the point covering (b, c, G) is number 32·b + G / 8192), hence the whole output array is the transpose of the
  input array.
-/
import proofs.«160623_j5669356834440_1_alg».proof.Proof.Gen.KernelIdeal.Frame
import proofs.«160623_j5669356834440_1_alg».proof.Proof.Transposed
import Idealize.ShloMosaic.Lib.Pipeline.Value

set_option maxRecDepth 16384

noncomputable section

namespace Cert.KernelIdeal.Tiles

open Cert.KernelIdeal Cert.KernelIdeal.Gen Cert.Transposed
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero_offsets : (![0, 0, 0] : Fin 3 → Nat) = fun _ => 0 := funext fun a => by fin_cases a <;> rfl

/-- What the body stores is the fetched slab with its two long axes exchanged. -/
theorem stored_apply (x0 : Vec F S1x8192x64 .f32) (j : S1x64x8192.Idx) :
    k0_pay1 x0 j = x0 (tileSrc j) := by
  unfold k0_pay1
  exact tile_apply x0 shapeCasts_S1x8192x64_S8192x64 transposes_S8192x64_p1_0_S64x8192 shapeCasts_S64x8192_S1x64x8192 j

/-- Point number `t` of the 8 × 32 grid is (t / 32, t % 32): it fetches input block (t / 32, t % 32, 0) and writes
    back output block (t / 32, 0, t % 32). -/
theorem point_blocks : ∀ t : Fin cfg0.N,
    win0_1.index t = ![t.val / 32, 0, t.val % 32] ∧ win0_0.index t = ![t.val / 32, t.val % 32, 0] :=
  (by decide +kernel : ∀ t : Fin grid0.N, _)

/-- Two elements of types that are both a third one are equal there as soon as they are equal. -/
theorem cast_congr {α β γ : Type} (h0 : α = γ) (h1 : β = γ) (a : α) (b : β) (hab : HEq a b) : cast h0 a = cast h1 b := by
  subst h0; subst h1; exact eq_of_heq hab

/-- What point `t` writes back is block `t` of the transpose of the array the region was handed: the stored
    slab at (0, c, g) is the fetched slab at (0, g, c), which sits in the input array at
    (b, 8192·k + g, c) — the source of the output array's entry (b, c, 8192·k + g). -/
theorem flushed_eq (c : Dev nD) (t : Fin cfg0.N) :
    (dats m 0 c).flushed 1 t = ((cfg0.win 1).blk t).view.read (Elt F) (swapped (V m c main_v26)) := by
  show (cfg0.win 1).cut (grid0.coords t) ((dats m 0 c).after 1 t) = _
  rw [after0_1]
  unfold out0_1
  rw [View.canon_unit_zero zero_offsets]
  simp only [View.ld_unit_zero (S := S1x8192x64) zero_offsets]
  have hblk : iblk m c 0 t = ((cfg0.win 0).blk t).view.read (Elt F) (V m c main_v26) := rfl
  rw [hblk]
  generalize V m c main_v26 = A
  funext j
  rw [View.read_apply]
  refine (stored_apply _ ((win0 1).xinj (grid0.coords t) j)).trans ?_
  rw [View.read_apply]
  refine cast_congr _ _ _ _ (heq_of_eq ?_)
  unfold swapped
  refine congrArg A ?_
  obtain ⟨e1, e0⟩ := point_blocks t
  have o0 : win0_1.index t (0 : Fin 3) = t.val / 32 := congrFun e1 0
  have o1 : win0_1.index t (1 : Fin 3) = 0 := congrFun e1 1
  have o2 : win0_1.index t (2 : Fin 3) = t.val % 32 := congrFun e1 2
  have i0 : win0_0.index t (0 : Fin 3) = t.val / 32 := congrFun e0 0
  have i1 : win0_0.index t (1 : Fin 3) = t.val % 32 := congrFun e0 1
  have i2 : win0_0.index t (2 : Fin 3) = 0 := congrFun e0 2
  have hj0 : (j 0).val < 1 := (j 0).isLt
  funext a
  apply Fin.ext
  match a with
  | ⟨0, _⟩ => show win0_0.index t (0 : Fin 3) * 1 + 1 * 0 = win0_1.index t (0 : Fin 3) * 1 + 1 * (j 0).val; omega
  | ⟨1, _⟩ => show win0_0.index t (1 : Fin 3) * 8192 + 1 * (j 2).val = win0_1.index t (2 : Fin 3) * 8192 + 1 * (j 2).val; omega
  | ⟨2, _⟩ => show win0_0.index t (2 : Fin 3) * 64 + 1 * (j 1).val = win0_1.index t (1 : Fin 3) * 64 + 1 * (j 1).val; omega

/-- An index of the output array is in point `t`'s block iff each coordinate is in the block's range on its axis. -/
theorem mem_block (t : Fin cfg0.N) (i : S8x64x262144.Idx) :
    i ∈ ((cfg0.win 1).blk t).view.set ↔ ∀ a : Fin 3, win0_1.index t a * S1x64x8192.size a ≤ (i a).val ∧ (i a).val < win0_1.index t a * S1x64x8192.size a + S1x64x8192.size a := by
  show i ∈ ((View.whole main_v27).slice (win0_1.rect t)).set ↔ _
  rw [View.set_slice_whole, Rect.mem_set_unit]
  exact Iff.rfl

/-- The written blocks tile the output array: (b, c, G) lies in the block of point number 32·b + G / 8192. -/
theorem covered (i : S8x64x262144.Idx) :
    ∃ t : Fin cfg0.N, (cfg0.win 1).flush t = true ∧ i ∈ ((cfg0.win 1).blk t).view.set := by
  have hi0 : (i 0).val < 8 := (i 0).isLt
  have hi1 : (i 1).val < 64 := (i 1).isLt
  have hi2 : (i 2).val < 262144 := (i 2).isLt
  have hN : (i 0).val * 32 + (i 2).val / 8192 < cfg0.N := by
    show (i 0).val * 32 + (i 2).val / 8192 < 256
    omega
  obtain ⟨t, htv⟩ : ∃ t : Fin cfg0.N, t.val = (i 0).val * 32 + (i 2).val / 8192 := ⟨⟨_, hN⟩, rfl⟩
  obtain ⟨e1, -⟩ := point_blocks t
  have o0 : win0_1.index t (0 : Fin 3) = t.val / 32 := congrFun e1 0
  have o1 : win0_1.index t (1 : Fin 3) = 0 := congrFun e1 1
  have o2 : win0_1.index t (2 : Fin 3) = t.val % 32 := congrFun e1 2
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 64 ≤ (i 1).val ∧ (i 1).val < win0_1.index t (1 : Fin 3) * 64 + 64; omega
  | ⟨2, _⟩ => show win0_1.index t (2 : Fin 3) * 8192 ≤ (i 2).val ∧ (i 2).val < win0_1.index t (2 : Fin 3) * 8192 + 8192; omega

/-- The output array after the run is the transpose of the array the region was handed. -/
theorem final (c : Dev nD) : (dats m 0 c).arrAt 1 cfg0.N = swapped (V m c main_v26) :=
  (dats m 0 c).arrAt_eq_of_cover 1 (swapped (V m c main_v26)) (fun t _ => flushed_eq m c t) covered

end Cert.KernelIdeal.Tiles

end
-- ==== Proof.WholeRun.lean ====
/-
  The whole program's run, read back: its result is the reference's own term of the argument arrays.

  Before the region the host scatters the rows of the first argument into a zero array of shape
  [8, 262144, 64], at the places the second argument's columns name; the reference begins with the very same
  lines, so the array handed to the region IS the reference's scattered array, operation by operation.  The region
  leaves the transpose of that array (exchanging the grid-cell and channel axes), and the one host line after the
  region reshapes [8, 64, 262144] to [8, 64, 512, 512].  The reference transposes the scattered array by the
  permutation [0, 2, 1] and reshapes in the same way: the two results are one term.
-/
import proofs.«160623_j5669356834440_1_alg».proof.Proof.Tiles
import proofs.«160623_j5669356834440_1_alg».proof.Proof.Gen.ReferenceIdeal.Read
import Idealize.ShloMosaic.Lib.StableHlo.Run

set_option maxRecDepth 16384

noncomputable section

namespace Cert.KernelIdeal.WholeRun

open Cert.KernelIdeal Cert.KernelIdeal.Gen Cert.Transposed
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

set_option maxHeartbeats 1000000 in
/-- The array handed to the region: the host lines before it are the reference's first lines, so it is the
    reference's scattered array of the two arguments. -/
theorem handed (c : Dev nD) :
    V m c main_v26 = Cert.ReferenceIdeal.Read.val_main_v26 (F := F) (m ((c : Thread nD τ).loc main_arg0)) (m ((c : Thread nD τ).loc main_arg1)) := by
  show StableHlo.after hostOps0 (fun b => m (c, b)) (Proc.devRef .tc main_v26) = _
  after_results_simp <;> rfl

/-- The one host line after the region reshapes the region's output array. -/
theorem tail (c : Dev nD) :
    Pipeline.afterTail₀ cfgs (dats m) 0 (V0 m) [hostOps1] c main_v28
      = shapeCast S8x64x512x512 ((dats m 0 c).arrAt 1 cfg0.N) shapeCasts_S8x64x262144_S8x64x512x512 := by
  unfold Pipeline.afterTail₀
  show StableHlo.after hostOps1 _ (Proc.devRef .tc main_v28) = _
  after_results
  have e := Pipeline.withArrays_arr spec0 launch0.win.arr_inj c (V0 m c) (fun w => (dats m 0 c).arrAt w cfg0.N) 1
  exact congrArg (fun X => shapeCast S8x64x512x512 X shapeCasts_S8x64x262144_S8x64x512x512) e

/-- The program's result is the reference's term: reshape ∘ transpose ∘ scatter of the arguments. -/
theorem result_eq (c : Dev nD) :
    Pipeline.afterTail₀ cfgs (dats m) 0 (V0 m) [hostOps1] c main_v28
      = Cert.ReferenceIdeal.Read.val_main_v28 (F := F) (m ((c : Thread nD τ).loc main_arg0)) (m ((c : Thread nD τ).loc main_arg1)) := by
  rw [tail m c, Tiles.final m c, handed m c]
  unfold Cert.ReferenceIdeal.Read.val_main_v28 Cert.ReferenceIdeal.Read.val_main_v27
  rw [transpose_eq_swapped]

/-- Every weakly fair execution of the program terminates with its result at the reference's term of the
    arguments, and the arguments unchanged. -/
theorem run : θ_run defs (onTc (τ := τ) (main (F := F))) ⟨m, fun _ => 0, ρ⟩ fun r => ∀ c : Dev nD,
      r.2.mem ((c.tc : Thread nD τ).loc main_v28) = Cert.ReferenceIdeal.Read.val_main_v28 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v28 (Pipeline.mem_restRefs_of main_v28 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.WholeRun

end
-- ==== Proof.lean ====
/-
  The kernel scatters the rows of its first argument into a zero array (on the host), moves that array from
  layout (batch, grid cell, channel) to (batch, channel, grid cell) tile by tile in one region, and reshapes; the
  reference scatters in the same way, transposes the whole array by the permutation [0, 2, 1], and reshapes.

  The three frames: the two kernel programs' are generated; the reference's is its generated run with the
  result dropped.  Nothing was rewritten when the kernel was idealized, so that claim is `True`.  The value
  claim: the kernel's run ends with its result at the reference's own term of the arguments (the tiles the
  region writes back tile the transposed array: Proof/Tiles.lean; the host lines around it: Proof/WholeRun.lean),
  and the reference's generated run ends at that term by definition.  No arithmetic is involved: every entry of
  either result is one entry of the scattered array, so nothing is asked of the inputs' finiteness.
-/
import proofs.«160623_j5669356834440_1_alg».proof.Defs
import proofs.«160623_j5669356834440_1_alg».proof.Proof.Gen.Kernel
import proofs.«160623_j5669356834440_1_alg».proof.Proof.Gen.Kernel.Skeleton
import proofs.«160623_j5669356834440_1_alg».proof.Proof.Gen.Kernel.Launch
import proofs.«160623_j5669356834440_1_alg».proof.Proof.Gen.Kernel.Points
import proofs.«160623_j5669356834440_1_alg».proof.Proof.Gen.Kernel.Frame
import proofs.«160623_j5669356834440_1_alg».proof.Proof.Gen.KernelIdeal
import proofs.«160623_j5669356834440_1_alg».proof.Proof.Gen.KernelIdeal.Skeleton
import proofs.«160623_j5669356834440_1_alg».proof.Proof.Gen.KernelIdeal.Launch
import proofs.«160623_j5669356834440_1_alg».proof.Proof.Gen.KernelIdeal.Points
import proofs.«160623_j5669356834440_1_alg».proof.Proof.Gen.KernelIdeal.Frame
import proofs.«160623_j5669356834440_1_alg».proof.Proof.Gen.ReferenceIdeal
import proofs.«160623_j5669356834440_1_alg».proof.Proof.Gen.ReferenceIdeal.Run
import proofs.«160623_j5669356834440_1_alg».proof.Proof.Gen.ReferenceIdeal.Read
import proofs.«160623_j5669356834440_1_alg».proof.Proof.Gen.Pre_finite_inputs
import proofs.«160623_j5669356834440_1_alg».proof.Proof.WholeRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at reshape ∘ transpose ∘ scatter of the argument arrays, which agree. -/
theorem algebraic : Cert.algebraic_KernelIdeal_ReferenceIdeal := by
  intro m ρ m' ρ' _ hagree
  refine ⟨fun c => Cert.ReferenceIdeal.Read.val_main_v28 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.WholeRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
